-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S_ : Shape := ⟨0, ![]⟩

class Facts : Prop where
  bcast_S_S32x96x128x128 : S_.BroadcastsInDim S32x96x128x128 (![] : Fin 0 → Fin S32x96x128x128.rank)
  reducesTo_S32x96x128x128_S_d0_1_2_3 : S32x96x128x128.ReducesTo [0, 1, 2, 3] S_
  h_S_ : 0 < S_.numel
  bcast_S_S32x148 : S_.BroadcastsInDim S32x148 (![] : Fin 0 → Fin S32x148.rank)
  reducesTo_S32x148_S_d0_1 : S32x148.ReducesTo [0, 1] S_
  bcast_S_S9216x148 : S_.BroadcastsInDim S9216x148 (![] : Fin 0 → Fin S9216x148.rank)
  reducesTo_S9216x148_S_d0_1 : S9216x148.ReducesTo [0, 1] S_
  bcast_S_S9216 : S_.BroadcastsInDim S9216 (![] : Fin 0 → Fin S9216.rank)
  reducesTo_S9216_S_d0 : S9216.ReducesTo [0] S_
  bcast_S_S96x148 : S_.BroadcastsInDim S96x148 (![] : Fin 0 → Fin S96x148.rank)
  reducesTo_S96x148_S_d0_1 : S96x148.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x148 .f32) (main_arg5 : FVec F S96 .f32) (main_v13 : IVec S_ 1) (main_v16 : IVec S9216 1) : IVec S_ 1 :=
  let main_c_5 : IVec S_ 1 := constantI S_ 1 1#1
  let main_v17 : IVec S_ 1 := (fun x v => Host.reduce IntOp.andi x v reducesTo_S9216_S_d0 h_S_) main_v16 main_c_5
  let main_v18 : IVec S_ 1 := andi main_v13 main_v17
  let main_v19 : FVec F S96x148 .f32 := Host.absf main_arg4
  let main_cst_6 : FVec F S_ .f32 := constant S_ .f32 0x7F800000#32
  let main_v20 : FVec F S96x148 .f32 := broadcastInDim S96x148 ![] bcast_S_S96x148 main_cst_6
  let main_v21 : IVec S96x148 1 := cmpf .olt main_v19 main_v20
  let main_c_7 : IVec S_ 1 := constantI S_ 1 1#1
  let main_v22 : IVec S_ 1 := (fun x v => Host.reduce IntOp.andi x v reducesTo_S96x148_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S32x96x128x128 .f32) (main_arg1 : FVec F S32x148 .f32) (main_arg2 : FVec F S9216x148 .f32) (main_arg3 : FVec F S9216 .f32) (main_arg4 : FVec F S96x148 .f32) (main_arg5 : FVec F S96 .f32) : IVec S_ 1 :=
  let main_v0 : FVec F S32x96x128x128 .f32 := Host.absf main_arg0
  let main_cst : FVec F S_ .f32 := constant S_ .f32 0x7F800000#32
  let main_v1 : FVec F S32x96x128x128 .f32 := broadcastInDim S32x96x128x128 ![] bcast_S_S32x96x128x128 main_cst
  let main_v2 : IVec S32x96x128x128 1 := cmpf .olt main_v0 main_v1
  let main_c : IVec S_ 1 := constantI S_ 1 1#1
  let main_v3 : IVec S_ 1 := (fun x v => Host.reduce IntOp.andi x v reducesTo_S32x96x128x128_S_d0_1_2_3 h_S_) main_v2 main_c
  let main_v4 : FVec F S32x148 .f32 := Host.absf main_arg1
  let main_cst_0 : FVec F S_ .f32 := constant S_ .f32 0x7F800000#32
  let main_v5 : FVec F S32x148 .f32 := broadcastInDim S32x148 ![] bcast_S_S32x148 main_cst_0
  let main_v6 : IVec S32x148 1 := cmpf .olt main_v4 main_v5
  let main_c_1 : IVec S_ 1 := constantI S_ 1 1#1
  let main_v7 : IVec S_ 1 := (fun x v => Host.reduce IntOp.andi x v reducesTo_S32x148_S_d0_1 h_S_) main_v6 main_c_1
  let main_v8 : IVec S_ 1 := andi main_v3 main_v7
  let main_v9 : FVec F S9216x148 .f32 := Host.absf main_arg2
  let main_cst_2 : FVec F S_ .f32 := constant S_ .f32 0x7F800000#32
  let main_v10 : FVec F S9216x148 .f32 := broadcastInDim S9216x148 ![] bcast_S_S9216x148 main_cst_2
  let main_v11 : IVec S9216x148 1 := cmpf .olt main_v9 main_v10
  let main_c_3 : IVec S_ 1 := constantI S_ 1 1#1
  let main_v12 : IVec S_ 1 := (fun x v => Host.reduce IntOp.andi x v reducesTo_S9216x148_S_d0_1 h_S_) main_v11 main_c_3
  let main_v13 : IVec S_ 1 := andi main_v8 main_v12
  let main_v14 : FVec F S9216 .f32 := Host.absf main_arg3
  let main_cst_4 : FVec F S_ .f32 := constant S_ .f32 0x7F800000#32
  let main_v15 : FVec F S9216 .f32 := broadcastInDim S9216 ![] bcast_S_S9216 main_cst_4
  let main_v16 : IVec S9216 1 := cmpf .olt main_v14 main_v15
  fn_part1 (F := F) main_arg4 main_arg5 main_v13 main_v16
-- ==== Kernel.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S96x96x148 : Shape := ⟨3, ![96, 96, 148]⟩
abbrev S_ : Shape := ⟨0, ![]⟩
abbrev S96x96 : Shape := ⟨2, ![96, 96]⟩
abbrev S148x96 : Shape := ⟨2, ![148, 96]⟩
abbrev S32x96 : Shape := ⟨2, ![32, 96]⟩
abbrev S1x96 : Shape := ⟨2, ![1, 96]⟩
abbrev S32x96x1x1 : Shape := ⟨4, ![32, 96, 1, 1]⟩
abbrev S1x96x128x128 : Shape := ⟨4, ![1, 96, 128, 128]⟩
abbrev S1x96x1x1 : Shape := ⟨4, ![1, 96, 1, 1]⟩

abbrev nBuf : Space → Nat
  | .hbm => 25
  | .vmem => 8
  | .smem => 0
  | _ => 0

abbrev bufTy : (tb : Table) → Fin (tcTables nBuf tb) → BufTy
  | .hbm, ⟨0, _⟩ => ⟨S32x96x128x128, .f32⟩
  | .hbm, ⟨1, _⟩ => ⟨S32x148, .f32⟩
  | .hbm, ⟨2, _⟩ => ⟨S9216x148, .f32⟩
  | .hbm, ⟨3, _⟩ => ⟨S9216, .f32⟩
  | .hbm, ⟨4, _⟩ => ⟨S96x148, .f32⟩
  | .hbm, ⟨5, _⟩ => ⟨S96, .f32⟩
  | .hbm, ⟨6, _⟩ => ⟨S96x96x148, .f32⟩
  | .hbm, ⟨7, _⟩ => ⟨S_, .f32⟩
  | .hbm, ⟨8, _⟩ => ⟨S96x148, .f32⟩
  | .hbm, ⟨9, _⟩ => ⟨S96x96, .f32⟩
  | .hbm, ⟨10, _⟩ => ⟨S_, .f32⟩
  | .hbm, ⟨11, _⟩ => ⟨S96, .f32⟩
  | .hbm, ⟨12, _⟩ => ⟨S148x96, .f32⟩
  | .hbm, ⟨13, _⟩ => ⟨S32x96, .f32⟩
  | .hbm, ⟨14, _⟩ => ⟨S1x96, .f32⟩
  | .hbm, ⟨15, _⟩ => ⟨S32x96, .f32⟩
  | .hbm, ⟨16, _⟩ => ⟨S32x96, .f32⟩
  | .hbm, ⟨17, _⟩ => ⟨S148x96, .f32⟩
  | .hbm, ⟨18, _⟩ => ⟨S32x96, .f32⟩
  | .hbm, ⟨19, _⟩ => ⟨S1x96, .f32⟩
  | .hbm, ⟨20, _⟩ => ⟨S32x96, .f32⟩
  | .hbm, ⟨21, _⟩ => ⟨S32x96, .f32⟩
  | .hbm, ⟨22, _⟩ => ⟨S32x96x1x1, .f32⟩
  | .hbm, ⟨23, _⟩ => ⟨S32x96x1x1, .f32⟩
  | .hbm, ⟨24, _⟩ => ⟨S32x96x128x128, .f32⟩
  | .local _ .vmem, ⟨0, _⟩ => ⟨S1x96x128x128, .f32⟩
  | .local _ .vmem, ⟨1, _⟩ => ⟨S1x96x128x128, .f32⟩
  | .local _ .vmem, ⟨2, _⟩ => ⟨S1x96x1x1, .f32⟩
  | .local _ .vmem, ⟨3, _⟩ => ⟨S1x96x1x1, .f32⟩
  | .local _ .vmem, ⟨4, _⟩ => ⟨S1x96x1x1, .f32⟩
  | .local _ .vmem, ⟨5, _⟩ => ⟨S1x96x1x1, .f32⟩
  | .local _ .vmem, ⟨6, _⟩ => ⟨S1x96x128x128, .f32⟩
  | .local _ .vmem, ⟨7, _⟩ => ⟨S1x96x128x128, .f32⟩
  | _, _ => ⟨S32x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S9216x148_S96x96x148 : S9216x148.ShapeCasts S96x96x148
  reducesTo_S96x96x148_S96x148_d1 : S96x96x148.ReducesTo [1] S96x148
  h_S_ : 0 < S_.numel
  shapeCasts_S9216_S96x96 : S9216.ShapeCasts S96x96
  reducesTo_S96x96_S96_d1 : S96x96.ReducesTo [1] S96
  transposes_S96x148_S148x96_1_0 : S96x148.Transposes [1, 0] S148x96
  bcast_S96_S1x96_1 : S96.BroadcastsInDim S1x96 (![1] : Fin 1 → Fin S1x96.rank)
  bcast_S1x96_S32x96_0_1 : S1x96.BroadcastsInDim S32x96 (![0, 1] : Fin 2 → Fin S32x96.rank)
  shapeCasts_S32x96_S32x96x1x1 : S32x96.ShapeCasts S32x96x1x1
  inb_S1x96x128x128_S1x96x128x128_0_0_0_0 : ∀ a, (![0, 0, 0, 0] : Fin 4 → Nat) a + S1x96x128x128.size a ≤ S1x96x128x128.size a
  h_S1x96x128x128 : 0 < S1x96x128x128.numel
  inb_S1x96x1x1_S1x96x1x1_0_0_0_0 : ∀ a, (![0, 0, 0, 0] : Fin 4 → Nat) a + S1x96x1x1.size a ≤ S1x96x1x1.size a
  h_S1x96x1x1 : 0 < S1x96x1x1.numel
  shapeCasts_S1x96x1x1_S1x96x1x1 : S1x96x1x1.ShapeCasts S1x96x1x1
  broadcasts_S1x96x1x1_S1x96x128x128 : S1x96x1x1.Broadcasts S1x96x128x128
  dot_S32x148_S148x96_S32x96_1_0_0_1_n_n_wf : DotDims.WF S32x148 S148x96 S32x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x128x128.size a ≤ S32x96x128x128.size a
  hwx0_0 : ∀ i : grid0.Coords, EltTy.bits .f32 = 32 ∨ (Rect.block (s := S32x96x128x128) S1x96x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x1x1.size a ≤ S32x96x1x1.size a
  hwx0_1 : ∀ i : grid0.Coords, EltTy.bits .f32 = 32 ∨ (Rect.block (s := S32x96x1x1) S1x96x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x1x1.size a ≤ S32x96x1x1.size a
  hwx0_2 : ∀ i : grid0.Coords, EltTy.bits .f32 = 32 ∨ (Rect.block (s := S32x96x1x1) S1x96x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x128x128.size a ≤ S32x96x128x128.size a
  hwx0_3 : ∀ i : grid0.Coords, EltTy.bits .f32 = 32 ∨ (Rect.block (s := S32x96x128x128) S1x96x128x128.size (cc0_transform_3 i) (hinb0_3 i)).WholeWords (EltTy.packing .f32)

variable [Facts₀]

def dot_S32x148_S148x96_S32x96_1_0_0_1_n_n : DotDims S32x148 S148x96 S32x96 where
  lhsContracting := [1]
  rhsContracting := [0]
  lhsNonContracting := [0]
  rhsNonContracting := [1]
  lhsBatch := []
  rhsBatch := []
  wf := dot_S32x148_S148x96_S32x96_1_0_0_1_n_n_wf

abbrev win0_0 : Pipeline.Window sig grid0 :=
  Pipeline.Window.ofSpec (Memref.whole main_arg0) S1x96x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x96x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x96x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x96x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S148x9216 : Shape := ⟨2, ![148, 9216]⟩
abbrev S32x9216 : Shape := ⟨2, ![32, 9216]⟩
abbrev S1x9216 : Shape := ⟨2, ![1, 9216]⟩
abbrev S32x96x96 : Shape := ⟨3, ![32, 96, 96]⟩
abbrev S148x96 : Shape := ⟨2, ![148, 96]⟩
abbrev S32x96 : Shape := ⟨2, ![32, 96]⟩
abbrev S1x96 : Shape := ⟨2, ![1, 96]⟩
abbrev S_ : Shape := ⟨0, ![]⟩
abbrev S32x96x1x1 : Shape := ⟨4, ![32, 96, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x96x128x128, .f32⟩
  | .hbm, ⟨1, _⟩ => ⟨S32x148, .f32⟩
  | .hbm, ⟨2, _⟩ => ⟨S9216x148, .f32⟩
  | .hbm, ⟨3, _⟩ => ⟨S9216, .f32⟩
  | .hbm, ⟨4, _⟩ => ⟨S96x148, .f32⟩
  | .hbm, ⟨5, _⟩ => ⟨S96, .f32⟩
  | .hbm, ⟨6, _⟩ => ⟨S148x9216, .f32⟩
  | .hbm, ⟨7, _⟩ => ⟨S32x9216, .f32⟩
  | .hbm, ⟨8, _⟩ => ⟨S1x9216, .f32⟩
  | .hbm, ⟨9, _⟩ => ⟨S32x9216, .f32⟩
  | .hbm, ⟨10, _⟩ => ⟨S32x9216, .f32⟩
  | .hbm, ⟨11, _⟩ => ⟨S32x96x96, .f32⟩
  | .hbm, ⟨12, _⟩ => ⟨S148x96, .f32⟩
  | .hbm, ⟨13, _⟩ => ⟨S32x96, .f32⟩
  | .hbm, ⟨14, _⟩ => ⟨S1x96, .f32⟩
  | .hbm, ⟨15, _⟩ => ⟨S32x96, .f32⟩
  | .hbm, ⟨16, _⟩ => ⟨S32x96, .f32⟩
  | .hbm, ⟨17, _⟩ => ⟨S_, .f32⟩
  | .hbm, ⟨18, _⟩ => ⟨S32x96, .f32⟩
  | .hbm, ⟨19, _⟩ => ⟨S32x96x1x1, .f32⟩
  | .hbm, ⟨20, _⟩ => ⟨S32x96x128x128, .f32⟩
  | .hbm, ⟨21, _⟩ => ⟨S32x96x128x128, .f32⟩
  | .hbm, ⟨22, _⟩ => ⟨S32x96x1x1, .f32⟩
  | .hbm, ⟨23, _⟩ => ⟨S32x96x128x128, .f32⟩
  | .hbm, ⟨24, _⟩ => ⟨S32x96x128x128, .f32⟩
  | .hbm, ⟨25, _⟩ => ⟨S_, .f32⟩
  | .hbm, ⟨26, _⟩ => ⟨S32x96x128x128, .f32⟩
  | .hbm, ⟨27, _⟩ => ⟨S32x96x128x128, .f32⟩
  | _, _ => ⟨S32x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S9216x148_S148x9216_1_0 : S9216x148.Transposes [1, 0] S148x9216
  bcast_S9216_S1x9216_1 : S9216.BroadcastsInDim S1x9216 (![1] : Fin 1 → Fin S1x9216.rank)
  bcast_S1x9216_S32x9216_0_1 : S1x9216.BroadcastsInDim S32x9216 (![0, 1] : Fin 2 → Fin S32x9216.rank)
  shapeCasts_S32x9216_S32x96x96 : S32x9216.ShapeCasts S32x96x96
  transposes_S96x148_S148x96_1_0 : S96x148.Transposes [1, 0] S148x96
  bcast_S96_S1x96_1 : S96.BroadcastsInDim S1x96 (![1] : Fin 1 → Fin S1x96.rank)
  bcast_S1x96_S32x96_0_1 : S1x96.BroadcastsInDim S32x96 (![0, 1] : Fin 2 → Fin S32x96.rank)
  reducesTo_S32x96x96_S32x96_d2 : S32x96x96.ReducesTo [2] S32x96
  h_S_ : 0 < S_.numel
  bcast_S32x96_S32x96x1x1_0_1 : S32x96.BroadcastsInDim S32x96x1x1 (![0, 1] : Fin 2 → Fin S32x96x1x1.rank)
  bcast_S32x96x1x1_S32x96x128x128_0_1_2_3 : S32x96x1x1.BroadcastsInDim S32x96x128x128 (![0, 1, 2, 3] : Fin 4 → Fin S32x96x128x128.rank)
  bcast_S_S32x96x128x128 : S_.BroadcastsInDim S32x96x128x128 (![] : Fin 0 → Fin S32x96x128x128.rank)
  dot_S32x148_S148x9216_S32x9216_1_0_0_1_n_n_wf : DotDims.WF S32x148 S148x9216 S32x9216 [1] [0] [0] [1] [] []
  dot_S32x148_S148x96_S32x96_1_0_0_1_n_n_wf : DotDims.WF S32x148 S148x96 S32x96 [1] [0] [0] [1] [] []

variable [Facts₀]

def dot_S32x148_S148x9216_S32x9216_1_0_0_1_n_n : DotDims S32x148 S148x9216 S32x9216 where
  lhsContracting := [1]
  rhsContracting := [0]
  lhsNonContracting := [0]
  rhsNonContracting := [1]
  lhsBatch := []
  rhsBatch := []
  wf := dot_S32x148_S148x9216_S32x9216_1_0_0_1_n_n_wf
def dot_S32x148_S148x96_S32x96_1_0_0_1_n_n : DotDims S32x148 S148x96 S32x96 where
  lhsContracting := [1]
  rhsContracting := [0]
  lhsNonContracting := [0]
  rhsNonContracting := [1]
  lhsBatch := []
  rhsBatch := []
  wf := dot_S32x148_S148x96_S32x96_1_0_0_1_n_n_wf

class Facts : Prop extends Facts₀ where

variable [Facts]
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.SumFirst.lean ====
/-
  The per-sample, per-channel scale of the affine stage, computed two ways.

  The hypernetwork's weight matrix W has 96·96 rows of 148 entries and its bias wb has 96·96 entries;
  row c·96 + d belongs to output channel c. The scale of sample b and channel c is the sum over d of
  the d-th response,  Σ_d ( Σ_k y(b,k)·W(c·96+d, k) + wb(c·96+d) ).
  Summing the rows of W and the entries of wb over d FIRST and contracting once,
      Σ_k y(b,k)·( Σ_d W(c·96+d, k) ) + Σ_d wb(c·96+d),
  gives the same number when every entry is real: a real factor distributes over a finite real sum, the
  two finite sums commute, and a sum of sums is the sum of the two sums. (On the extended reals the
  first of these needs the entries to be real: an infinite y(b,k) against rows of opposite infinities
  would break it.) Both forms carry the float zero the sums start from; it is the real zero.

  The file also states the result of the whole stage as one function `stage` of the six argument
  arrays: max( h·scale + bias, 0 ) entry by entry, scale and bias depending on (sample, channel) only.
-/
import Idealize.ShloMosaic.PureOps.Ideal
import Idealize.ShloMosaic.PureOps.Ideal.Laws
import Idealize.ShloMosaic.Lib.ValueIdx
import proofs.«138222_j19842748907868_2_alg».proof.Proof.LibRealSums

noncomputable section

namespace Cert.AffineStage

open Idealize.ShloMosaic Idealize.ShloMosaic.ValueIdx Finset Cert.Lib.RealSums

/-- Row c·96 + d of the 9216 hypernetwork rows: the d-th row of channel c. -/
def row (c d : Fin 96) : Fin 9216 := ⟨c.val * 96 + d.val, by have := c.isLt; have := d.isLt; omega⟩

/-- An array of extended reals all of whose entries are real numbers. -/
def AllReal {ι : Type} (x : ι → EReal) : Prop := ∀ i, ∃ r : ℝ, x i = (r : EReal)

/-- The scale of sample b, channel c: the sum over the channel's 96 rows of each row's response. -/
def scale (y : (⟨2, ![32, 148]⟩ : Shape).Idx → EReal) (W : (⟨2, ![9216, 148]⟩ : Shape).Idx → EReal)
    (wb : (⟨1, ![9216]⟩ : Shape).Idx → EReal) (b : Fin 32) (c : Fin 96) : EReal :=
  0 + ∑ d : Fin 96, (∑ k : Fin 148, y (ix2 b k) * W (ix2 (row c d) k) + wb (ix1 (row c d)))

/-- The same with the channel's rows summed before the contraction. -/
def scaleSummedFirst (y : (⟨2, ![32, 148]⟩ : Shape).Idx → EReal) (W : (⟨2, ![9216, 148]⟩ : Shape).Idx → EReal)
    (wb : (⟨1, ![9216]⟩ : Shape).Idx → EReal) (b : Fin 32) (c : Fin 96) : EReal :=
  ∑ k : Fin 148, y (ix2 b k) * (0 + ∑ d : Fin 96, W (ix2 (row c d) k)) + (0 + ∑ d : Fin 96, wb (ix1 (row c d)))

/-- The bias of sample b, channel c. -/
def bias (y : (⟨2, ![32, 148]⟩ : Shape).Idx → EReal) (Bw : (⟨2, ![96, 148]⟩ : Shape).Idx → EReal)
    (bb : (⟨1, ![96]⟩ : Shape).Idx → EReal) (b : Fin 32) (c : Fin 96) : EReal :=
  ∑ k : Fin 148, y (ix2 b k) * Bw (ix2 c k) + bb (ix1 c)

/-- The stage's result: every entry of the feature map times its (sample, channel) scale, plus the bias, cut at zero. -/
def stage (h : (⟨4, ![32, 96, 128, 128]⟩ : Shape).Idx → EReal) (y : (⟨2, ![32, 148]⟩ : Shape).Idx → EReal)
    (W : (⟨2, ![9216, 148]⟩ : Shape).Idx → EReal) (wb : (⟨1, ![9216]⟩ : Shape).Idx → EReal)
    (Bw : (⟨2, ![96, 148]⟩ : Shape).Idx → EReal) (bb : (⟨1, ![96]⟩ : Shape).Idx → EReal) :
    (⟨4, ![32, 96, 128, 128]⟩ : Shape).Idx → EReal :=
  fun i => max (h i * scale y W wb (i 0) (i 1) + bias y Bw bb (i 0) (i 1)) 0

/-- Over the reals: contracting against the summed rows is summing the contractions. -/
theorem real_sum_first {K D : Type} [Fintype K] [Fintype D] (y : K → ℝ) (W : D → K → ℝ) (wb : D → ℝ) :
    ∑ k, y k * (∑ d, W d k) + ∑ d, wb d = ∑ d, (∑ k, y k * W d k + wb d) := by
  rw [sum_add_distrib]
  congr 1
  rw [sum_comm]
  exact sum_congr rfl fun k _ => mul_sum _ _ _

/-- For real entries the two forms of the scale agree. -/
theorem scaleSummedFirst_eq (y : (⟨2, ![32, 148]⟩ : Shape).Idx → EReal) (W : (⟨2, ![9216, 148]⟩ : Shape).Idx → EReal)
    (wb : (⟨1, ![9216]⟩ : Shape).Idx → EReal) (hy : AllReal y) (hW : AllReal W) (hwb : AllReal wb) (b : Fin 32) (c : Fin 96) :
    scaleSummedFirst y W wb b c = scale y W wb b c := by
  choose y' hy' using hy
  choose W' hW' using hW
  choose wb' hwb' using hwb
  unfold scaleSummedFirst scale
  simp only [hy', hW', hwb', zero_add]
  simp only [← coe_sum, ← EReal.coe_mul, ← EReal.coe_add]
  exact congrArg _ (real_sum_first (fun k => y' (ix2 b k)) (fun d k => W' (ix2 (row c d) k)) (fun d => wb' (ix1 (row c d))))

/-- The stage with the scale in its summed-first form. -/
def stageSummedFirst (h : (⟨4, ![32, 96, 128, 128]⟩ : Shape).Idx → EReal) (y : (⟨2, ![32, 148]⟩ : Shape).Idx → EReal)
    (W : (⟨2, ![9216, 148]⟩ : Shape).Idx → EReal) (wb : (⟨1, ![9216]⟩ : Shape).Idx → EReal)
    (Bw : (⟨2, ![96, 148]⟩ : Shape).Idx → EReal) (bb : (⟨1, ![96]⟩ : Shape).Idx → EReal) :
    (⟨4, ![32, 96, 128, 128]⟩ : Shape).Idx → EReal :=
  fun i => max (h i * scaleSummedFirst y W wb (i 0) (i 1) + bias y Bw bb (i 0) (i 1)) 0

/-- For real conditioning vectors, weight rows and bias entries it is the stage. -/
theorem stageSummedFirst_eq (h : (⟨4, ![32, 96, 128, 128]⟩ : Shape).Idx → EReal) (y : (⟨2, ![32, 148]⟩ : Shape).Idx → EReal)
    (W : (⟨2, ![9216, 148]⟩ : Shape).Idx → EReal) (wb : (⟨1, ![9216]⟩ : Shape).Idx → EReal)
    (Bw : (⟨2, ![96, 148]⟩ : Shape).Idx → EReal) (bb : (⟨1, ![96]⟩ : Shape).Idx → EReal)
    (hy : AllReal y) (hW : AllReal W) (hwb : AllReal wb) :
    stageSummedFirst h y W wb Bw bb = stage h y W wb Bw bb := by
  funext i
  exact congrArg (fun s => max (h i * s + bias y Bw bb (i 0) (i 1)) 0) (scaleSummedFirst_eq y W wb hy hW hwb (i 0) (i 1))

end Cert.AffineStage

end
-- ==== Proof.LibFiniteTest.lean ====
/-
  The finiteness test `all(|x| < +∞)` of a float array, read on the extended reals.

  A precondition "every entry of x is finite" is computed as: take |x| entry by entry, compare it with the
  float +∞ stretched over x's shape, and take the conjunction of all the comparison bits. On the extended reals
  |x| is max x (−x), the float pattern 0x7F800000 is the top element, and max x (−x) < ⊤ holds exactly when x is
  neither infinity — when x is a real number. So if the conjunction is the bit 1, every entry of x is real.
  Stated for any shape of x and any list of reduced axes, over the literal shape of a single number ⟨0, ![]⟩.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value
import Mathlib.Data.EReal.Operations

noncomputable section

namespace Cert.Lib.FiniteTest

open Idealize.ShloMosaic Idealize.ShloMosaic.ValueIdx

/-- The shape of a single number has one index. -/
instance : Subsingleton (⟨0, ![]⟩ : Shape).Idx := ⟨fun _ _ => funext fun d => d.elim0⟩

/-- The float pattern of +∞ denotes the top of the extended reals. -/
theorem ofBits_inf : Ideal.ofBits .f32 0x7F800000#32 = (⊤ : EReal) := by simp [Ideal.ofBits, Ideal.ieee]

/-- An extended real whose absolute value, max x (−x), is below +∞ is a real number. -/
theorem exists_real_of_abs_lt_top {x : EReal} (h : max x (-x) < ⊤) : ∃ r : ℝ, x = (r : EReal) := by
  induction x using EReal.rec with
  | bot => simp at h
  | top => simp at h
  | coe r => exact ⟨r, rfl⟩

/-- One entry's test: |x i| < +∞ says that x i is a real number. -/
theorem real_of_abs_lt_inf {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  rw [cmpf_apply, Ideal.cmpf_def, broadcastInDim_apply _ hb _ i ix0 (fun a => a.elim0), constant_apply, ofBits_inf] at h
  have h' : max (x i) (-(x i)) < ⊤ := by
    by_contra hn
    have : Ideal.cmp .olt (Host.absf x i) ⊤ = 0#1 := by
      show BitVec.ofBool (decide (max (x i) (-(x i)) < ⊤)) = 0#1
      rw [decide_eq_false hn]; rfl
    rw [this] at h
    exact absurd h (by decide)
  exact exists_real_of_abs_lt_top h'

/-- The whole test: the conjunction over all entries is 1, so every entry is real. -/
theorem allReal_of_all {s : Shape} (x : FVec Ideal s .f32)
    (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (h : Host.reduce IntOp.andi (cmpf .olt (Host.absf x) (broadcastInDim s ![] hb (constant (F := Ideal) ⟨0, ![]⟩ .f32 0x7F800000#32)))
      (constantI ⟨0, ![]⟩ 1 1#1) hr hu ix0 = 1#1) : ∀ i, ∃ r : ℝ, x i = (r : EReal) :=
  fun i => real_of_abs_lt_inf x hb i (Host.reduce_andi_all _ _ hr hu ix0 h i)

end Cert.Lib.FiniteTest

end
-- ==== Proof.FiniteArgs.lean ====
/-
  What the precondition says of the arrays the scale is computed from.

  The precondition is a conjunction of six tests, one per argument array: every entry x of the array
  has |x| below +∞, that is, is a real number. The three arrays the scale is computed from — the
  conditioning vectors y, the hypernetwork's weight rows W and its bias entries wb — are therefore arrays
  of reals, which is what summing W and wb over a channel's rows before the contraction needs.
-/
import proofs.«138222_j19842748907868_2_alg».proof.Pre_finite_inputs
import proofs.«138222_j19842748907868_2_alg».proof.Proof.LibFiniteTest
import proofs.«138222_j19842748907868_2_alg».proof.Proof.SumFirst

noncomputable section

namespace Cert.AffineStage

open Idealize.ShloMosaic Idealize.ShloMosaic.ValueIdx Cert.Lib.FiniteTest

/-- Under the precondition the conditioning vectors, the hypernetwork's weight rows and its bias entries are real. -/
theorem real_of_pre [Cert.Pre_finite_inputs.Facts] (a0 : FVec Ideal Cert.Pre_finite_inputs.S32x96x128x128 .f32)
    (a1 : FVec Ideal Cert.Pre_finite_inputs.S32x148 .f32) (a2 : FVec Ideal Cert.Pre_finite_inputs.S9216x148 .f32)
    (a3 : FVec Ideal Cert.Pre_finite_inputs.S9216 .f32) (a4 : FVec Ideal Cert.Pre_finite_inputs.S96x148 .f32)
    (a5 : FVec Ideal Cert.Pre_finite_inputs.S96 .f32)
    (h : Cert.Pre_finite_inputs.fn (F := Ideal) a0 a1 a2 a3 a4 a5 = fun _ => 1#1) : AllReal a1 ∧ AllReal a2 ∧ AllReal a3 := by
  have h0 := congrFun h ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨-, e1⟩ := IntOp.andi_eq_one.1 h0
  exact ⟨allReal_of_all a1 _ _ _ e1, allReal_of_all a2 _ _ _ e2, allReal_of_all a3 _ _ _ e3⟩

end Cert.AffineStage

end
-- ==== Proof.RefRead.lean ====
/-
  The reference computes `stage`.

  The reference forms all 9216 responses of a sample, y·Wᵀ + wb, lays them out as 96 channels of 96, sums each
  channel's 96 responses, and applies scale and bias to the feature map entry by entry before the cut at zero.
  Read at an entry (b, c, p, q) through the generated read-at-an-index lemmas this is `stage` literally: the
  flat row index the reshape produces for (sample b, channel c, position d) is b·9216 + c·96 + d, whose quotient
  by 9216 is b and whose remainder is row c·96 + d.
-/
import proofs.«138222_j19842748907868_2_alg».proof.Proof.Gen.ReferenceIdeal.Read
import proofs.«138222_j19842748907868_2_alg».proof.Proof.SumFirst

noncomputable section

namespace Cert.AffineStage.Ref

open Idealize.ShloMosaic Idealize.ShloMosaic.ValueIdx Cert.AffineStage Cert.ReferenceIdeal Cert.ReferenceIdeal.Read

variable (b : Fin 32) (c : Fin 96) (p q : Fin 128)

/-- The sample the d-th response of channel c of sample b is computed from: b. -/
theorem sample_of_response (d : Fin 96) (k : Fin 148) :
    lidx_main_v1 (idx_main_v5 (idx_main_v11 (idx_main_v12 (idx_main_v13 (ix4 b c p q))) d)) k = ix2 b k := by
  funext a; apply Fin.ext
  match a with
  | ⟨0, _⟩ =>
    show ((b.val * 96 + c.val) * 96 + d.val) / 9216 = b.val
    have := b.isLt; have := c.isLt; have := d.isLt; omega
  | ⟨1, _⟩ => rfl

/-- The weight row that response is computed from: row c·96 + d. -/
theorem row_of_response (d : Fin 96) (k : Fin 148) :
    idx_main_v0 (ridx_main_v1 (idx_main_v5 (idx_main_v11 (idx_main_v12 (idx_main_v13 (ix4 b c p q))) d)) k) = ix2 (row c d) k := by
  funext a; apply Fin.ext
  match a with
  | ⟨0, _⟩ =>
    show ((b.val * 96 + c.val) * 96 + d.val) % 9216 = c.val * 96 + d.val
    have := b.isLt; have := c.isLt; have := d.isLt; omega
  | ⟨1, _⟩ => rfl

/-- The bias entry added to that response: entry c·96 + d. -/
theorem entry_of_response (d : Fin 96) :
    idx_main_v2 (idx_main_v3 (idx_main_v5 (idx_main_v11 (idx_main_v12 (idx_main_v13 (ix4 b c p q))) d))) = ix1 (row c d) := by
  funext a; apply Fin.ext
  match a with
  | ⟨0, _⟩ =>
    show ((b.val * 96 + c.val) * 96 + d.val) % 9216 = c.val * 96 + d.val
    have := b.isLt; have := c.isLt; have := d.isLt; omega

/-- The bias contraction of entry (b, c, p, q) reads sample b, -/
theorem sample_of_bias (k : Fin 148) : lidx_main_v7 (idx_main_v15 (idx_main_v16 (ix4 b c p q))) k = ix2 b k := by
  funext a; apply Fin.ext
  match a with
  | ⟨0, _⟩ => rfl
  | ⟨1, _⟩ => rfl

/-- row c of the bias weights, -/
theorem row_of_bias (k : Fin 148) : idx_main_v6 (ridx_main_v7 (idx_main_v15 (idx_main_v16 (ix4 b c p q))) k) = ix2 c k := by
  funext a; apply Fin.ext
  match a with
  | ⟨0, _⟩ => rfl
  | ⟨1, _⟩ => rfl

/-- and entry c of the bias vector. -/
theorem entry_of_bias : idx_main_v8 (idx_main_v9 (idx_main_v15 (idx_main_v16 (ix4 b c p q)))) = ix1 c := by
  funext a; apply Fin.ext
  match a with
  | ⟨0, _⟩ => rfl

/-- The reference's result, as the generated stages compose it, is `stage` of the six arguments. -/
theorem result_eq_stage (x0 : FVec Ideal S32x96x128x128 .f32) (x1 : FVec Ideal S32x148 .f32) (x2 : FVec Ideal S9216x148 .f32)
    (x3 : FVec Ideal S9216 .f32) (x4 : FVec Ideal S96x148 .f32) (x5 : FVec Ideal S96 .f32) :
    val_main_v18 (F := Ideal) x0 x1 x2 x3 x4 x5 = stage x0 x1 x2 x3 x4 x5 := by
  funext i
  obtain ⟨b, c, p, q, rfl⟩ : ∃ (b : Fin 32) (c : Fin 96) (p : Fin 128) (q : Fin 128), i = ix4 b c p q := ⟨i 0, i 1, i 2, i 3, eq_ix4 i⟩
  rw [val_main_v18_apply, val_main_v17_apply, val_main_v14_apply, val_main_v13_apply, val_main_v12_apply, val_main_v11_apply,
    val_main_v16_apply, val_main_v15_apply, val_main_v10_apply, val_main_v7_apply, val_main_v9_apply, val_main_v8_apply,
    val_main_call0_v0_apply, val_main_call0_cst_apply, val_main_cst_apply]
  simp only [val_main_v5_apply, val_main_v4_apply, val_main_v1_apply, val_main_v3_apply, val_main_v2_apply, val_main_v0_apply,
    val_main_v6_apply, sample_of_response, row_of_response, entry_of_response, sample_of_bias, row_of_bias, entry_of_bias,
    Ideal.ofBits_def, Ideal.addf_def, Ideal.mulf_def, Ideal.maximumf_def, Ideal.ofBits_zero_f32]
  rfl

end Cert.AffineStage.Ref

end
-- ==== Proof.HostPrefix.lean ====
/-
  What the kernel's program computes before it launches the affine stage: the scale and the bias arrays.

  Before the launch the program sums, for every channel, the channel's 96 weight rows and its 96 bias entries
  (the weights reshaped [96, 96, 148] and summed over the middle axis, the bias entries reshaped [96, 96] and
  summed over the second), and then forms two dense layers over the conditioning vectors: the scale from the
  summed rows and summed entries, the bias from the bias weights and bias vector. Both are handed to the stage
  as [32, 96, 1, 1] arrays. Read at (b, c):
    the scale array is  Σ_k y(b,k)·(0 + Σ_d W(c·96+d, k)) + (0 + Σ_d wb(c·96+d))   (`scaleSummedFirst`),
    the bias array is   Σ_k y(b,k)·Bw(c,k) + bb(c)                                 (`bias`).
-/
import proofs.«138222_j19842748907868_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws
import proofs.«138222_j19842748907868_2_alg».proof.Proof.SumFirst

noncomputable section

namespace Cert.AffineStage.Prefix

open Idealize.ShloMosaic Idealize.ShloMosaic.ValueIdx Idealize.ShloMosaic.TcCoe Idealize.SL.Sem Idealize.ShloMosaic.StableHlo
open Cert.AffineStage Cert.KernelIdeal Cert.KernelIdeal.Gen

/-! ## A dense layer x·wᵀ + v read at an entry -/

/-- The contraction's record, named. -/
abbrev dotYW : DotDims S32x148 S148x96 S32x96 := dot_S32x148_S148x96_S32x96_1_0_0_1_n_n

theorem lhs_row (i : S32x96.Idx) (q : dotYW.contr.Idx) : (dotYW.lhsIdx i q 0).val = (i 0).val := by
  unfold DotDims.lhsIdx
  rw [dif_neg (show ¬(0 : Fin S32x148.rank) ∈ dotYW.lhsBatch by decide), dif_pos (show (0 : Fin S32x148.rank) ∈ dotYW.lhsNonContracting by decide)]
  rfl
theorem lhs_col (i : S32x96.Idx) (q : dotYW.contr.Idx) : (dotYW.lhsIdx i q 1).val = (q ⟨0, by decide⟩).val :=
  dotYW.lhsIdx_val_of_single rfl i q
theorem rhs_row (i : S32x96.Idx) (q : dotYW.contr.Idx) : (dotYW.rhsIdx i q 0).val = (q ⟨0, by decide⟩).val :=
  dotYW.rhsIdx_val_of_single rfl i q
theorem rhs_col (i : S32x96.Idx) (q : dotYW.contr.Idx) : (dotYW.rhsIdx i q 1).val = (i 1).val := by
  unfold DotDims.rhsIdx
  rw [dif_neg (show ¬(1 : Fin S148x96.rank) ∈ dotYW.rhsBatch by decide), dif_pos (show (1 : Fin S148x96.rank) ∈ dotYW.rhsNonContracting by decide)]
  rfl

/-- The product of x with the transpose of w, plus the vector v stretched over the rows, at entry (b, c):
    the contraction of row b of x with row c of w, plus v(c). -/
theorem dense_apply (x : FVec Ideal S32x148 .f32) (w : FVec Ideal S96x148 .f32) (v : FVec Ideal S96 .f32) (b : Fin 32) (c : Fin 96) :
    addf (Host.dotGeneral (F := Ideal) dot_S32x148_S148x96_S32x96_1_0_0_1_n_n none x (transpose S148x96 [1, 0] w transposes_S96x148_S148x96_1_0))
        (broadcastInDim S32x96 ![0, 1] bcast_S1x96_S32x96_0_1 (broadcastInDim S1x96 ![1] bcast_S96_S1x96_1 v)) (ix2 b c)
      = ∑ k : Fin 148, x (ix2 b k) * w (ix2 c k) + v (ix1 c) := by
  rw [addf_apply]
  refine congrArg₂ (· + ·) ?_ ?_
  · simp only [Host.dotGeneral]
    rw [Ideal.dotGeneral_apply, ← Equiv.sum_comp (contrEquiv1 dot_S32x148_S148x96_S32x96_1_0_0_1_n_n 148 rfl rfl).symm]
    refine Finset.sum_congr rfl fun k _ => ?_
    have hk := contrEquiv1_symm_val dot_S32x148_S148x96_S32x96_1_0_0_1_n_n 148 rfl rfl k
    have el : dot_S32x148_S148x96_S32x96_1_0_0_1_n_n.lhsIdx (ix2 b c) ((contrEquiv1 dot_S32x148_S148x96_S32x96_1_0_0_1_n_n 148 rfl rfl).symm k) = ix2 b k :=
      funext fun a => Fin.ext (by
        match a with
        | ⟨0, _⟩ => exact lhs_row _ _
        | ⟨1, _⟩ => exact (lhs_col _ _).trans hk)
    have er : dot_S32x148_S148x96_S32x96_1_0_0_1_n_n.rhsIdx (ix2 b c) ((contrEquiv1 dot_S32x148_S148x96_S32x96_1_0_0_1_n_n 148 rfl rfl).symm k) = ix2 k c :=
      funext fun a => Fin.ext (by
        match a with
        | ⟨0, _⟩ => exact (rhs_row _ _).trans hk
        | ⟨1, _⟩ => exact rhs_col _ _)
    rw [el, er]
    exact congrArg (x (ix2 b k) * ·) (transpose_apply [1, 0] w transposes_S96x148_S148x96_1_0 (ix2 k c) (ix2 c k) (fun a => match a with
      | ⟨0, _⟩ => rfl
      | ⟨1, _⟩ => rfl))
  · refine (broadcastInDim_apply _ bcast_S1x96_S32x96_0_1 _ (ix2 b c) (ix2 (0 : Fin 1) c) (fun a => match a with
      | ⟨0, _⟩ => by show 0 = if (1 : Nat) = 1 then 0 else b.val; rw [if_pos rfl]
      | ⟨1, _⟩ => by show c.val = if (96 : Nat) = 1 then 0 else c.val; rw [if_neg (by decide)])).trans ?_
    exact broadcastInDim_apply _ bcast_S96_S1x96_1 v (ix2 (0 : Fin 1) c) (ix1 c) (fun a => match a with
      | ⟨0, _⟩ => by show c.val = if (96 : Nat) = 1 then 0 else c.val; rw [if_neg (by decide)])

/-! ## The channel sums -/

/-- The weight rows reshaped [96, 96, 148] and summed over the middle axis, at (c, k): the float zero plus the sum
    over the channel's 96 rows of their k-th entries. -/
theorem rows_summed (a2 : FVec Ideal S9216x148 .f32) (c : Fin 96) (k : Fin 148) :
    Host.reduceAdd (F := Ideal) (shapeCast S96x96x148 a2 shapeCasts_S9216x148_S96x96x148) (constant (F := Ideal) S_ .f32 0x00000000#32)
        reducesTo_S96x96x148_S96x148_d1 h_S_ (ix2 c k)
      = 0 + ∑ d : Fin 96, a2 (ix2 (row c d) k) := by
  simp only [Host.reduceAdd, Ideal.hostReduceAdd_def]
  rw [Ideal.hostReduceAdd_single reducesTo_S96x96x148_S96x148_d1 (by decide)]
  refine congrArg₂ (· + ·) ((constant_apply _ _).trans Ideal.ofBits_zero_f32) (Finset.sum_congr rfl fun d _ => ?_)
  refine shapeCast_apply a2 shapeCasts_S9216x148_S96x96x148 _ (ix2 (row c d) k) ?_
  rw [Shape.rowMajor_val_two, Shape.rowMajor_val_three]
  rfl

/-- The bias entries reshaped [96, 96] and summed over the second axis, at c: the float zero plus the sum of the
    channel's 96 entries. -/
theorem entries_summed (a3 : FVec Ideal S9216 .f32) (c : Fin 96) :
    Host.reduceAdd (F := Ideal) (shapeCast S96x96 a3 shapeCasts_S9216_S96x96) (constant (F := Ideal) S_ .f32 0x00000000#32)
        reducesTo_S96x96_S96_d1 h_S_ (ix1 c)
      = 0 + ∑ d : Fin 96, a3 (ix1 (row c d)) := by
  simp only [Host.reduceAdd, Ideal.hostReduceAdd_def]
  rw [Ideal.hostReduceAdd_single reducesTo_S96x96_S96_d1 (by decide)]
  refine congrArg₂ (· + ·) ((constant_apply _ _).trans Ideal.ofBits_zero_f32) (Finset.sum_congr rfl fun d _ => ?_)
  refine shapeCast_apply a3 shapeCasts_S9216_S96x96 _ (ix1 (row c d)) ?_
  rw [Shape.rowMajor_val_one, Shape.rowMajor_val_two]
  rfl

/-! ## The two arrays -/

/-- The scale array the program computes before the launch, as a term of the three arguments it reads. -/
def scaleArr (a1 : FVec Ideal S32x148 .f32) (a2 : FVec Ideal S9216x148 .f32) (a3 : FVec Ideal S9216 .f32) : FVec Ideal S32x96 .f32 :=
  addf (Host.dotGeneral (F := Ideal) dot_S32x148_S148x96_S32x96_1_0_0_1_n_n none a1
      (transpose S148x96 [1, 0]
        (Host.reduceAdd (F := Ideal) (shapeCast S96x96x148 a2 shapeCasts_S9216x148_S96x96x148) (constant (F := Ideal) S_ .f32 0x00000000#32)
          reducesTo_S96x96x148_S96x148_d1 h_S_)
        transposes_S96x148_S148x96_1_0))
    (broadcastInDim S32x96 ![0, 1] bcast_S1x96_S32x96_0_1 (broadcastInDim S1x96 ![1] bcast_S96_S1x96_1
      (Host.reduceAdd (F := Ideal) (shapeCast S96x96 a3 shapeCasts_S9216_S96x96) (constant (F := Ideal) S_ .f32 0x00000000#32)
        reducesTo_S96x96_S96_d1 h_S_)))

/-- The bias array likewise. -/
def biasArr (a1 : FVec Ideal S32x148 .f32) (a4 : FVec Ideal S96x148 .f32) (a5 : FVec Ideal S96 .f32) : FVec Ideal S32x96 .f32 :=
  addf (Host.dotGeneral (F := Ideal) dot_S32x148_S148x96_S32x96_1_0_0_1_n_n none a1 (transpose S148x96 [1, 0] a4 transposes_S96x148_S148x96_1_0))
    (broadcastInDim S32x96 ![0, 1] bcast_S1x96_S32x96_0_1 (broadcastInDim S1x96 ![1] bcast_S96_S1x96_1 a5))

/-- The scale array at (b, c) is the scale with the channel's rows summed first. -/
theorem scaleArr_apply (a1 : FVec Ideal S32x148 .f32) (a2 : FVec Ideal S9216x148 .f32) (a3 : FVec Ideal S9216 .f32) (b : Fin 32) (c : Fin 96) :
    scaleArr a1 a2 a3 (ix2 b c) = scaleSummedFirst a1 a2 a3 b c := by
  unfold scaleArr scaleSummedFirst
  rw [dense_apply, entries_summed]
  exact congrArg (· + _) (Finset.sum_congr rfl fun k _ => congrArg (a1 (ix2 b k) * ·) (rows_summed a2 c k))

/-- The bias array at (b, c) is the bias. -/
theorem biasArr_apply (a1 : FVec Ideal S32x148 .f32) (a4 : FVec Ideal S96x148 .f32) (a5 : FVec Ideal S96 .f32) (b : Fin 32) (c : Fin 96) :
    biasArr a1 a4 a5 (ix2 b c) = bias a1 a4 a5 b c := by
  unfold biasArr bias
  exact dense_apply a1 a4 a5 b c

/-- An array [32, 96] handed on as [32, 96, 1, 1] reads at (b, c, 0, 0) as the array at (b, c). -/
theorem as_columns_apply (x : FVec Ideal S32x96 .f32) (b : Fin 32) (c : Fin 96) (z z' : Fin 1) :
    shapeCast S32x96x1x1 x shapeCasts_S32x96_S32x96x1x1 (ix4 b c z z') = x (ix2 b c) := by
  refine shapeCast_apply x shapeCasts_S32x96_S32x96x1x1 _ (ix2 b c) ?_
  rw [Shape.rowMajor_val_two, Shape.rowMajor_val_four]
  show b.val * 96 + c.val = ((b.val * 96 + c.val) * 1 + z.val) * 1 + z'.val
  have := z.isLt; have := z'.isLt; omega

/-! ## What the stage's two small windows find -/

variable (m : (ℓ : Loc nD τ sig) → Buf (Elt Ideal) ℓ)

/-- The array the stage's scale window reads is the scale array of the launch contents, as [32, 96, 1, 1]. -/
theorem V_scale (c : Dev nD) : (V m c main_v14 : S32x96x1x1.Idx → EReal)
    = shapeCast S32x96x1x1 (scaleArr (m ((c : Thread nD τ).loc main_arg1)) (m ((c : Thread nD τ).loc main_arg2)) (m ((c : Thread nD τ).loc main_arg3))) shapeCasts_S32x96_S32x96x1x1 := by
  dsimp only [Gen.V, Gen.hostOps0]
  after_results
  rfl

/-- The array its bias window reads is the bias array of the launch contents, as [32, 96, 1, 1]. -/
theorem V_bias (c : Dev nD) : (V m c main_v15 : S32x96x1x1.Idx → EReal)
    = shapeCast S32x96x1x1 (biasArr (m ((c : Thread nD τ).loc main_arg1)) (m ((c : Thread nD τ).loc main_arg4)) (m ((c : Thread nD τ).loc main_arg5))) shapeCasts_S32x96_S32x96x1x1 := by
  dsimp only [Gen.V, Gen.hostOps0]
  after_results
  rfl

end Cert.AffineStage.Prefix

end
-- ==== Proof.Blocks.lean ====
/-
  From the blocks the stage writes to the whole result array.

  The stage runs once per sample t: it loads sample t's [96, 128, 128] slab of the feature map and the sample's 96
  scales and 96 biases, and stores, at (c, p, q), max( h(t,c,p,q)·scale(t,c) + bias(t,c), 0 ). The slab point t
  writes back is slab t of the result, the 32 slabs are the whole array, and the scale and bias the windows hold
  are the arrays the program computed before the launch. So the result array ends holding `stageSummedFirst` of
  the six arguments.
-/
import proofs.«138222_j19842748907868_2_alg».proof.Proof.Gen.KernelIdeal.Value
import proofs.«138222_j19842748907868_2_alg».proof.Proof.HostPrefix
import proofs.«138222_j19842748907868_2_alg».proof.Proof.SumFirst
import Idealize.ShloMosaic.Lib.Pipeline.Value

noncomputable section

namespace Cert.AffineStage.Blocks

open Idealize.ShloMosaic Idealize.ShloMosaic.ValueIdx Idealize.ShloMosaic.TcCoe Idealize.SL.Sem
open Cert.AffineStage Cert.AffineStage.Prefix Cert.KernelIdeal Cert.KernelIdeal.Gen
open Idealize.ShloMosaic.Pipeline (Dat)

theorem offsets_zero : (![0, 0, 0, 0] : Fin 4 → Nat) = fun _ => 0 := funext fun a => by fin_cases a <;> rfl

/-- What the body leaves in the output block at (c, p, q), for any loaded slab x0 and columns x1, x2. -/
theorem block_value (x0 : Vec Ideal S1x96x128x128 .f32) (x1 x2 : Vec Ideal S1x96x1x1 .f32) (z : Fin 1) (cc : Fin 96) (p q : Fin 128) :
    out0_3 x0 x1 x2 (ix4 z cc p q) = max (x0 (ix4 z cc p q) * x1 (ix4 (0 : Fin 1) cc (0 : Fin 1) (0 : Fin 1)) + x2 (ix4 (0 : Fin 1) cc (0 : Fin 1) (0 : Fin 1))) 0 := by
  unfold out0_3
  rw [Cert.KernelIdeal.Value.canon3_eq]
  simp only [View.ld_unit_zero (S := S1x96x128x128) offsets_zero, View.ld_unit_zero (S := S1x96x1x1) offsets_zero]
  have e0 : Cert.KernelIdeal.Value.ix3_0 (ix4 z cc p q) = ix4 z cc p q := by
    funext a; apply Fin.ext
    match a with
    | ⟨0, _⟩ => show 0 = z.val; have := z.isLt; omega
    | ⟨1, _⟩ => rfl
    | ⟨2, _⟩ => rfl
    | ⟨3, _⟩ => rfl
  have e1 : Cert.KernelIdeal.Value.ix3_1 (ix4 z cc p q) = ix4 (0 : Fin 1) cc (0 : Fin 1) (0 : Fin 1) := by
    funext a; apply Fin.ext
    match a with
    | ⟨0, _⟩ => rfl
    | ⟨1, _⟩ => rfl
    | ⟨2, _⟩ => rfl
    | ⟨3, _⟩ => rfl
  have e2 : Cert.KernelIdeal.Value.ix3_2 (ix4 z cc p q) = ix4 (0 : Fin 1) cc (0 : Fin 1) (0 : Fin 1) := by
    funext a; apply Fin.ext
    match a with
    | ⟨0, _⟩ => rfl
    | ⟨1, _⟩ => rfl
    | ⟨2, _⟩ => rfl
    | ⟨3, _⟩ => rfl
  show max (x0 (Cert.KernelIdeal.Value.ix3_0 (ix4 z cc p q)) * x1 (Cert.KernelIdeal.Value.ix3_1 (ix4 z cc p q))
    + x2 (Cert.KernelIdeal.Value.ix3_2 (ix4 z cc p q))) (Ideal.ofBits .f32 0x00000000#32) = _
  rw [e0, e1, e2, Ideal.ofBits_zero_f32]

variable (m : (ℓ : Loc nD τ sig) → Buf (Elt Ideal) ℓ) (ρ : Dev nD → PrngReg)

/-! ## Which entries a point's blocks hold -/

/-- The printed index maps, decided over the 32 points: block t of each of the four windows is sample t, whole
    along the other three axes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- Grid point t as a sample number. -/
def sample (t : Fin cfg0.N) : Fin 32 := ⟨t.val, Nat.lt_of_lt_of_eq t.isLt N_0⟩

/-- Entry (c, p, q) of the feature-map block at point t is entry (t, c, p, q) of the feature map. -/
theorem emb_in (t : Fin cfg0.N) (z : Fin 1) (cc : Fin 96) (p q : Fin 128) :
    ((cfg0.win 0).blk t).view.emb (ix4 z cc p q) = ix4 (sample t) cc p q := by
  obtain ⟨e0, e1, e2, e3, -⟩ := idx_facts t
  funext a; apply Fin.ext
  match a with
  | ⟨0, _⟩ => show win0_0.index t (0 : Fin 4) * 1 + 1 * z.val = t.val; have := z.isLt; omega
  | ⟨1, _⟩ => show win0_0.index t (1 : Fin 4) * 96 + 1 * cc.val = cc.val; omega
  | ⟨2, _⟩ => show win0_0.index t (2 : Fin 4) * 128 + 1 * p.val = p.val; omega
  | ⟨3, _⟩ => show win0_0.index t (3 : Fin 4) * 128 + 1 * q.val = q.val; omega

/-- The same for the result block. -/
theorem emb_out (t : Fin cfg0.N) (z : Fin 1) (cc : Fin 96) (p q : Fin 128) :
    ((cfg0.win 3).blk t).view.emb (ix4 z cc p q) = ix4 (sample t) cc p q := by
  obtain ⟨-, -, -, -, -, -, -, -, -, -, -, -, e0, e1, e2, e3⟩ := idx_facts t
  funext a; apply Fin.ext
  match a with
  | ⟨0, _⟩ => show win0_3.index t (0 : Fin 4) * 1 + 1 * z.val = t.val; have := z.isLt; omega
  | ⟨1, _⟩ => show win0_3.index t (1 : Fin 4) * 96 + 1 * cc.val = cc.val; omega
  | ⟨2, _⟩ => show win0_3.index t (2 : Fin 4) * 128 + 1 * p.val = p.val; omega
  | ⟨3, _⟩ => show win0_3.index t (3 : Fin 4) * 128 + 1 * q.val = q.val; omega

/-- Entry c of the scale block at point t is entry (t, c, 0, 0) of the scale array. -/
theorem emb_scale (t : Fin cfg0.N) (cc : Fin 96) :
    ((cfg0.win 1).blk t).view.emb (ix4 (0 : Fin 1) cc (0 : Fin 1) (0 : Fin 1)) = ix4 (sample t) cc (0 : Fin 1) (0 : Fin 1) := by
  obtain ⟨-, -, -, -, e0, e1, e2, e3, -⟩ := idx_facts t
  funext a; apply Fin.ext
  match a with
  | ⟨0, _⟩ => show win0_1.index t (0 : Fin 4) * 1 + 1 * 0 = t.val; omega
  | ⟨1, _⟩ => show win0_1.index t (1 : Fin 4) * 96 + 1 * cc.val = cc.val; omega
  | ⟨2, _⟩ => show win0_1.index t (2 : Fin 4) * 1 + 1 * 0 = 0; omega
  | ⟨3, _⟩ => show win0_1.index t (3 : Fin 4) * 1 + 1 * 0 = 0; omega

/-- The same for the bias block. -/
theorem emb_bias (t : Fin cfg0.N) (cc : Fin 96) :
    ((cfg0.win 2).blk t).view.emb (ix4 (0 : Fin 1) cc (0 : Fin 1) (0 : Fin 1)) = ix4 (sample t) cc (0 : Fin 1) (0 : Fin 1) := by
  obtain ⟨-, -, -, -, -, -, -, -, e0, e1, e2, e3, -⟩ := idx_facts t
  funext a; apply Fin.ext
  match a with
  | ⟨0, _⟩ => show win0_2.index t (0 : Fin 4) * 1 + 1 * 0 = t.val; omega
  | ⟨1, _⟩ => show win0_2.index t (1 : Fin 4) * 96 + 1 * cc.val = cc.val; omega
  | ⟨2, _⟩ => show win0_2.index t (2 : Fin 4) * 1 + 1 * 0 = 0; omega
  | ⟨3, _⟩ => show win0_2.index t (3 : Fin 4) * 1 + 1 * 0 = 0; omega

/-! ## What the three input blocks hold -/

/-- The feature-map block at point t holds sample t's slab of the feature map as launched. -/
theorem slab_read (c : Dev nD) (t : Fin cfg0.N) (z : Fin 1) (cc : Fin 96) (p q : Fin 128) :
    iblk m c 0 t (ix4 z cc p q) = m ((c : Thread nD τ).loc main_arg0) (ix4 (sample t) cc p q) := by
  show V m c main_arg0 (((cfg0.win 0).blk t).view.emb (ix4 z cc p q)) = _
  rw [V_main_arg0, emb_in]

/-- The scale block at point t holds sample t's scales, in their summed-first form. -/
theorem scale_read (c : Dev nD) (t : Fin cfg0.N) (cc : Fin 96) :
    iblk m c 1 t (ix4 (0 : Fin 1) cc (0 : Fin 1) (0 : Fin 1))
      = scaleSummedFirst (m ((c : Thread nD τ).loc main_arg1)) (m ((c : Thread nD τ).loc main_arg2)) (m ((c : Thread nD τ).loc main_arg3)) (sample t) cc := by
  show V m c main_v14 (((cfg0.win 1).blk t).view.emb (ix4 (0 : Fin 1) cc (0 : Fin 1) (0 : Fin 1))) = _
  rw [V_scale, emb_scale, as_columns_apply, scaleArr_apply]

/-- The bias block at point t holds sample t's biases. -/
theorem bias_read (c : Dev nD) (t : Fin cfg0.N) (cc : Fin 96) :
    iblk m c 2 t (ix4 (0 : Fin 1) cc (0 : Fin 1) (0 : Fin 1))
      = bias (m ((c : Thread nD τ).loc main_arg1)) (m ((c : Thread nD τ).loc main_arg4)) (m ((c : Thread nD τ).loc main_arg5)) (sample t) cc := by
  show V m c main_v15 (((cfg0.win 2).blk t).view.emb (ix4 (0 : Fin 1) cc (0 : Fin 1) (0 : Fin 1))) = _
  rw [V_bias, emb_bias, as_columns_apply, biasArr_apply]

/-! ## The result array -/

/-- The stage's result as the function of the launch contents the array ends holding. -/
def result (c : Dev nD) : S32x96x128x128.Idx → EReal :=
  stageSummedFirst (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body leaves at entry j of the output block at point t is the result at that entry's place in the array. -/
theorem point_value (c : Dev nD) (t : Fin cfg0.N) (j : S1x96x128x128.Idx) :
    out0_3 (iblk m c 0 t) (iblk m c 1 t) (iblk m c 2 t) j = result m c (((cfg0.win 3).blk t).view.emb j) := by
  obtain ⟨z, cc, p, q, rfl⟩ : ∃ (z : Fin 1) (cc : Fin 96) (p q : Fin 128), j = ix4 z cc p q := ⟨j 0, j 1, j 2, j 3, eq_ix4 j⟩
  refine (block_value (iblk m c 0 t) (iblk m c 1 t) (iblk m c 2 t) z cc p q).trans ?_
  rw [slab_read m c t z cc p q, scale_read m c t cc, bias_read m c t cc, emb_out t z cc p q]
  rfl

/-- What point t writes back is slab t of the result. -/
theorem flushed_eq (c : Dev nD) (t : Fin cfg0.N) :
    (dats m 0 c).flushed 3 t = ((cfg0.win 3).blk t).view.read (Elt Ideal) (result m c) := by
  rw [Cert.KernelIdeal.Value.flushed3]
  funext j
  exact point_value m c t j

/-- An entry is in point t's result block iff each coordinate is in the block's range on its axis. -/
theorem mem_slab (t : Fin cfg0.N) (i : S32x96x128x128.Idx) :
    i ∈ ((cfg0.win 3).blk t).view.set ↔ ∀ a : Fin 4, win0_3.index t a * S1x96x128x128.size a ≤ (i a).val
      ∧ (i a).val < win0_3.index t a * S1x96x128x128.size a + S1x96x128x128.size a := by
  show i ∈ ((View.whole main_v16).slice (win0_3.rect t)).set ↔ _
  rw [View.set_slice_whole, Rect.mem_set_unit]
  exact Iff.rfl

/-- Every entry (b, c, p, q) of the result is in the block of point b. -/
theorem covered (i : S32x96x128x128.Idx) : ∃ t : Fin cfg0.N, (cfg0.win 3).flush t = true ∧ i ∈ ((cfg0.win 3).blk t).view.set := by
  have h0 : (i 0).val < 32 := (i 0).isLt
  have h1 : (i 1).val < 96 := (i 1).isLt
  have h2 : (i 2).val < 128 := (i 2).isLt
  have h3 : (i 3).val < 128 := (i 3).isLt
  have ht : (i 0).val < cfg0.N := by show (i 0).val < grid0.N; rw [N_0]; exact h0
  refine ⟨⟨(i 0).val, ht⟩, flush0_3 _, ?_⟩
  rw [mem_slab]
  obtain ⟨-, -, -, -, -, -, -, -, -, -, -, -, e0, e1, e2, e3⟩ := idx_facts ⟨(i 0).val, ht⟩
  intro a
  match a with
  | ⟨0, _⟩ =>
    show win0_3.index ⟨(i 0).val, ht⟩ (0 : Fin 4) * 1 ≤ (i 0).val ∧ (i 0).val < win0_3.index ⟨(i 0).val, ht⟩ (0 : Fin 4) * 1 + 1
    rw [e0]; show (i 0).val * 1 ≤ (i 0).val ∧ (i 0).val < (i 0).val * 1 + 1; omega
  | ⟨1, _⟩ =>
    show win0_3.index ⟨(i 0).val, ht⟩ (1 : Fin 4) * 96 ≤ (i 1).val ∧ (i 1).val < win0_3.index ⟨(i 0).val, ht⟩ (1 : Fin 4) * 96 + 96
    rw [e1]; omega
  | ⟨2, _⟩ =>
    show win0_3.index ⟨(i 0).val, ht⟩ (2 : Fin 4) * 128 ≤ (i 2).val ∧ (i 2).val < win0_3.index ⟨(i 0).val, ht⟩ (2 : Fin 4) * 128 + 128
    rw [e2]; omega
  | ⟨3, _⟩ =>
    show win0_3.index ⟨(i 0).val, ht⟩ (3 : Fin 4) * 128 ≤ (i 3).val ∧ (i 3).val < win0_3.index ⟨(i 0).val, ht⟩ (3 : Fin 4) * 128 + 128
    rw [e3]; omega

/-- So the result array ends holding `result`. -/
theorem final (c : Dev nD) : (dats m 0 c).arrAt 3 cfg0.N = result m c :=
  (dats m 0 c).arrAt_eq_of_cover 3 (result m c) (fun t _ => flushed_eq m c t) covered

/-- The run of the kernel's program, read: the result array at `result`, the six arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.AffineStage.Blocks

end
-- ==== Proof.lean ====
/-
  The affine stage of an adaptive convolution, against its plain reference: equal results on the extended reals.

  Both programs take a feature map h [32, 96, 128, 128], conditioning vectors y [32, 148], a hypernetwork
  (weights W [9216, 148], biases wb [9216]) that produces for each sample a 96×96 matrix of which only the row sums
  are used, and a second dense layer (Bw [96, 148], bb [96]). Both return
      max( h(b,c,p,q) · scale(b,c) + bias(b,c), 0 ),
  with bias(b,c) = Σ_k y(b,k)·Bw(c,k) + bb(c). They differ in how the scale is computed:
    the reference forms all 9216 responses y·Wᵀ + wb of a sample and then sums each channel's 96 of them;
    the kernel's program sums each channel's 96 rows of W and 96 entries of wb first and contracts once.
  For real entries the two agree (Proof/SumFirst.lean): a real factor distributes over a finite real sum and
  finite sums commute. The precondition gives exactly that: every entry of y, W and wb is real
  (Proof/FiniteArgs.lean). Nothing else of the precondition is used: the feature map and the bias layer enter both
  programs through the same operations.

  The reference's result, read entry by entry through its generated stages, is `stage` (Proof/RefRead.lean). On
  the kernel's side the scale and bias arrays are computed on the host before the launch (Proof/HostPrefix.lean);
  the launched stage handles one sample per grid point and writes that sample's slab of the result, and the 32
  slabs are the whole array (Proof/Blocks.lean). The three frame claims are the generated frames and the
  reference's generated run; no operation was rewritten when the kernel was idealized, so that claim is trivial.
-/
import proofs.«138222_j19842748907868_2_alg».proof.Defs
import proofs.«138222_j19842748907868_2_alg».proof.Proof.Gen.Kernel
import proofs.«138222_j19842748907868_2_alg».proof.Proof.Gen.Kernel.Skeleton
import proofs.«138222_j19842748907868_2_alg».proof.Proof.Gen.Kernel.Launch
import proofs.«138222_j19842748907868_2_alg».proof.Proof.Gen.Kernel.Points
import proofs.«138222_j19842748907868_2_alg».proof.Proof.Gen.Kernel.Frame
import proofs.«138222_j19842748907868_2_alg».proof.Proof.Gen.KernelIdeal
import proofs.«138222_j19842748907868_2_alg».proof.Proof.Gen.KernelIdeal.Skeleton
import proofs.«138222_j19842748907868_2_alg».proof.Proof.Gen.KernelIdeal.Launch
import proofs.«138222_j19842748907868_2_alg».proof.Proof.Gen.KernelIdeal.Points
import proofs.«138222_j19842748907868_2_alg».proof.Proof.Gen.KernelIdeal.Frame
import proofs.«138222_j19842748907868_2_alg».proof.Proof.Gen.ReferenceIdeal
import proofs.«138222_j19842748907868_2_alg».proof.Proof.Gen.Pre_finite_inputs
import proofs.«138222_j19842748907868_2_alg».proof.Proof.Gen.KernelIdeal.Value
import proofs.«138222_j19842748907868_2_alg».proof.Proof.Gen.ReferenceIdeal.Run
import proofs.«138222_j19842748907868_2_alg».proof.Proof.Gen.ReferenceIdeal.Read
import proofs.«138222_j19842748907868_2_alg».proof.Proof.SumFirst
import proofs.«138222_j19842748907868_2_alg».proof.Proof.FiniteArgs
import proofs.«138222_j19842748907868_2_alg».proof.Proof.RefRead
import proofs.«138222_j19842748907868_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `stage` of the
    arguments: the reference always, the kernel's program because the precondition makes y, W and wb real. -/
theorem algebraic : Cert.algebraic_KernelIdeal_ReferenceIdeal := by
  intro m ρ m' ρ' hpre hagree
  refine ⟨fun c => Cert.AffineStage.stage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.AffineStage.Blocks.run m ρ)
    obtain ⟨hy, hW, hwb⟩ := Cert.AffineStage.real_of_pre _ _ _ _ _ _ (hpre c)
    exact Cert.AffineStage.stageSummedFirst_eq _ _ _ _ _ _ hy hW hwb
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v18_eq _ _ _ _ _ _).trans (Cert.AffineStage.Ref.result_eq_stage _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
